-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8x2048x4096 .f32) (main_arg1 : FVec F S4096x4096 .f32) (main_arg2 : FVec F S4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8x2048x4096 : Shape := ⟨3, ![8, 2048, 4096]⟩
abbrev S4096x4096 : Shape := ⟨2, ![4096, 4096]⟩
abbrev S4096 : Shape := ⟨1, ![4096]⟩
abbrev S16384x4096 : Shape := ⟨2, ![16384, 4096]⟩
abbrev S1x4096 : Shape := ⟨2, ![1, 4096]⟩
abbrev S128x4096 : Shape := ⟨2, ![128, 4096]⟩

abbrev nBuf : Space → Nat
  | .hbm => 7
  | .vmem => 6
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S16384x4096, .f32⟩
  | .hbm, ⟨4, _⟩ => ⟨S4096x4096, .bf16⟩
  | .hbm, ⟨5, _⟩ => ⟨S1x4096, .f32⟩
  | .hbm, ⟨6, _⟩ => ⟨S16384x4096, .f32⟩
  | .local _ .vmem, ⟨0, _⟩ => ⟨S128x4096, .f32⟩
  | .local _ .vmem, ⟨1, _⟩ => ⟨S128x4096, .f32⟩
  | .local _ .vmem, ⟨2, _⟩ => ⟨S4096x4096, .bf16⟩
  | .local _ .vmem, ⟨3, _⟩ => ⟨S1x4096, .f32⟩
  | .local _ .vmem, ⟨4, _⟩ => ⟨S128x4096, .f32⟩
  | .local _ .vmem, ⟨5, _⟩ => ⟨S128x4096, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x2048x4096_S16384x4096 : S8x2048x4096.ShapeCasts S16384x4096
  bitsLt_bf16_f32 : FTy.bits .bf16 < FTy.bits .f32
  shapeCasts_S4096_S1x4096 : S4096.ShapeCasts S1x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  dot_S128x4096_S4096x4096_S128x4096_1_0_0_1_n_n_wf : DotDims.WF S128x4096 S4096x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S16384x4096.size a
  hwx0_0 : ∀ i : grid0.Coords, EltTy.bits .f32 = 32 ∨ (Rect.block (s := S16384x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S16384x4096.size a
  hwx0_3 : ∀ i : grid0.Coords, EltTy.bits .f32 = 32 ∨ (Rect.block (s := S16384x4096) S128x4096.size (cc0_transform_3 i) (hinb0_3 i)).WholeWords (EltTy.packing .f32)

variable [Facts₀]

def dot_S128x4096_S4096x4096_S128x4096_1_0_0_1_n_n : DotDims S128x4096 S4096x4096 S128x4096 where
  lhsContracting := [1]
  rhsContracting := [0]
  lhsNonContracting := [0]
  rhsNonContracting := [1]
  lhsBatch := []
  rhsBatch := []
  wf := dot_S128x4096_S4096x4096_S128x4096_1_0_0_1_n_n_wf

abbrev win0_0 : Pipeline.Window sig grid0 :=
  Pipeline.Window.ofSpec (Memref.whole main_v0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S16384x4096 : Shape := ⟨2, ![16384, 4096]⟩
abbrev S1x4096 : Shape := ⟨2, ![1, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S16384x4096, .f32⟩
  | .hbm, ⟨4, _⟩ => ⟨S16384x4096, .f32⟩
  | .hbm, ⟨5, _⟩ => ⟨S1x4096, .f32⟩
  | .hbm, ⟨6, _⟩ => ⟨S16384x4096, .f32⟩
  | .hbm, ⟨7, _⟩ => ⟨S16384x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  shapeCasts_S8x2048x4096_S16384x4096 : S8x2048x4096.ShapeCasts S16384x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  dot_S16384x4096_S4096x4096_S16384x4096_1_0_0_1_n_n_wf : DotDims.WF S16384x4096 S4096x4096 S16384x4096 [1] [0] [0] [1] [] []

variable [Facts₀]

def dot_S16384x4096_S4096x4096_S16384x4096_1_0_0_1_n_n : DotDims S16384x4096 S4096x4096 S16384x4096 where
  lhsContracting := [1]
  rhsContracting := [0]
  lhsNonContracting := [0]
  rhsNonContracting := [1]
  lhsBatch := []
  rhsBatch := []
  wf := dot_S16384x4096_S4096x4096_S16384x4096_1_0_0_1_n_n_wf

class Facts : Prop extends Facts₀ where

variable [Facts]
-- ==== Proof.Spec.lean ====
/-
  The mathematics of this certificate, with no program in sight.

  The activation arrives as an array [8, 2048, 4096]: eight devices, each holding 2048 rows of 4096 features. "Gathering"
  the devices' rows is the row-major reading of that array as [16384, 4096]: gathered row `r` is local row `r % 2048` of
  device `r / 2048`. The layer is then an affine map: output element (r, n) is the sum over the 4096 features `k` of
  activation (r, k) times weight (k, n), plus bias n. Over the extended reals this is one function of the three argument
  arrays, index by index, and it is what both programs compute: neither side reorders, distributes or cancels anything,
  so no finiteness of the inputs is used.
-/
import Idealize.ShloMosaic.PureOps.Ideal
import Idealize.ShloMosaic.Lib.ValueIdx

noncomputable section

open scoped BigOperators

namespace Cert.GatheredLinear

open Idealize.ShloMosaic Idealize.ShloMosaic.ValueIdx

/-- Where element (r, k) of the gathered activation lives in the [8, 2048, 4096] argument: device `r / 2048`, that
    device's row `r % 2048`, feature `k`. -/
def gatheredIdx (r : Fin 16384) (k : Fin 4096) : (⟨3, ![8, 2048, 4096]⟩ : Shape).Idx :=
  ix3 (⟨r.val / 2048, by have := r.isLt; omega⟩ : Fin 8) (⟨r.val % 2048, by omega⟩ : Fin 2048) k

/-- Its row-major position is the gathered element's row-major position: `r * 4096 + k`. -/
theorem gatheredIdx_pos (r : Fin 16384) (k : Fin 4096) :
    ((gatheredIdx r k 0).val * 2048 + (gatheredIdx r k 1).val) * 4096 + (gatheredIdx r k 2).val = r.val * 4096 + k.val := by
  show ((r.val / 2048) * 2048 + r.val % 2048) * 4096 + k.val = r.val * 4096 + k.val
  have := Nat.div_add_mod r.val 2048
  omega

/-- THE LAYER: output (r, n) is the sum over features `k` of gathered activation (r, k) times weight (k, n), plus
    bias n. -/
def linear (a : FVec Ideal ⟨3, ![8, 2048, 4096]⟩ .f32) (w : FVec Ideal ⟨2, ![4096, 4096]⟩ .f32)
    (b : FVec Ideal ⟨1, ![4096]⟩ .f32) : FVec Ideal ⟨2, ![16384, 4096]⟩ .f32 :=
  fun i => (∑ k : Fin 4096, a (gatheredIdx (i 0) k) * w (ix2 k (i 1))) + b (ix1 (i 1))

theorem linear_apply (a : FVec Ideal ⟨3, ![8, 2048, 4096]⟩ .f32) (w : FVec Ideal ⟨2, ![4096, 4096]⟩ .f32)
    (b : FVec Ideal ⟨1, ![4096]⟩ .f32) (r : Fin 16384) (n : Fin 4096) :
    linear a w b (ix2 r n) = (∑ k : Fin 4096, a (gatheredIdx r k) * w (ix2 k n)) + b (ix1 n) := rfl

end Cert.GatheredLinear

end
-- ==== Proof.RefIsLinear.lean ====
/-
  The reference computes the layer.  Its five host operations are: read the [8, 2048, 4096] activation row-major as
  [16384, 4096]; contract its second axis with the weight's first; spread the bias over a [1, 4096] row and that row
  over all 16384 rows; add.  Read at output (r, n) this is the sum over k of the reshaped activation at (r, k) times
  the weight at (k, n), plus the bias at n.  The reshaped activation at (r, k) is the argument at the index with the
  same row-major position r * 4096 + k, which is device r / 2048, local row r % 2048, feature k.
-/
import proofs.«172472_j18708877542041_2_alg».proof.Proof.Gen.ReferenceIdeal.Read
import proofs.«172472_j18708877542041_2_alg».proof.Proof.Spec

noncomputable section

open scoped BigOperators

namespace Cert.ReferenceIdeal.RefValue

open Cert.ReferenceIdeal Cert.ReferenceIdeal.Read Idealize.ShloMosaic Idealize.ShloMosaic.ValueIdx Cert.GatheredLinear

/-- The reshaped activation at (r, k) is the argument at device r / 2048, local row r % 2048, feature k. -/
theorem reshaped_apply (x0 : FVec Ideal S8x2048x4096 .f32) (r : Fin 16384) (n : Fin 4096) (k : Fin 4096) :
    val_main_v0 (F := Ideal) x0 (lidx_main_v1 (ix2 r n) k) = x0 (gatheredIdx r k) := by
  rw [val_main_v0_apply]
  refine congrArg x0 (funext fun a => Fin.ext ?_)
  have hr := r.isLt
  have hk := k.isLt
  match a with
  | ⟨0, _⟩ => show (r.val * 4096 + k.val) / 8388608 = r.val / 2048; omega
  | ⟨1, _⟩ => show (r.val * 4096 + k.val) / 4096 % 2048 = r.val % 2048; omega
  | ⟨2, _⟩ => show (r.val * 4096 + k.val) % 4096 = k.val; omega

/-- The weight's index at output (r, n) and feature k is (k, n). -/
theorem weight_idx (r : Fin 16384) (n : Fin 4096) (k : Fin 4096) : ridx_main_v1 (ix2 r n) k = ix2 k n :=
  funext fun a => by match a with | ⟨0, _⟩ => rfl | ⟨1, _⟩ => rfl

/-- The bias, spread twice, is read at n. -/
theorem bias_idx (r : Fin 16384) (n : Fin 4096) : idx_main_v2 (idx_main_v3 (ix2 r n)) = ix1 n :=
  funext fun a => by match a with | ⟨0, _⟩ => rfl

/-- THE REFERENCE IS THE LAYER: its last stage, as a function of the three arguments, is `linear`. -/
theorem reference_is_linear (x0 : FVec Ideal S8x2048x4096 .f32) (x1 : FVec Ideal S4096x4096 .f32) (x2 : FVec Ideal S4096 .f32) :
    val_main_v4 (F := Ideal) x0 x1 x2 = linear x0 x1 x2 := by
  funext i
  obtain ⟨r, n, rfl⟩ : ∃ (r : Fin 16384) (n : Fin 4096), i = ix2 r n := ⟨i 0, i 1, eq_ix2 i⟩
  rw [val_main_v4_apply, val_main_v1_apply, val_main_v3_apply, val_main_v2_apply, linear_apply, bias_idx]
  show (∑ k : Fin 4096, _) + _ = _
  refine congrArg (· + x2 (ix1 n)) (Finset.sum_congr rfl fun k _ => ?_)
  rw [reshaped_apply, weight_idx]

end Cert.ReferenceIdeal.RefValue

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.BlockValue.lean ====
/-
  What the kernel body computes on one block.  The body loads a [128, 4096] tile of activation rows, the whole
  [4096, 4096] weight and the [1, 4096] bias row; it narrows the tile (over the extended reals a change of float format
  changes nothing), multiplies tile by weight into a zero accumulator, spreads the bias row over the 128 rows and adds.
  Read at entry (p, n) of the tile: the sum over k of tile (p, k) times weight (k, n), plus the bias row at n.
-/
import proofs.«172472_j18708877542041_2_alg».proof.Proof.Gen.KernelIdeal.Skeleton
import proofs.«172472_j18708877542041_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx

/-- The tile's index in the product at output (p, n) keeps the output's row. -/
theorem tile_row (j : S128x4096.Idx) (q : dot_S128x4096_S4096x4096_S128x4096_1_0_0_1_n_n.contr.Idx) :
    (dot_S128x4096_S4096x4096_S128x4096_1_0_0_1_n_n.lhsIdx j q 0).val = (j 0).val := by
  unfold DotDims.lhsIdx
  rw [dif_neg (show ¬(0 : Fin S128x4096.rank) ∈ dot_S128x4096_S4096x4096_S128x4096_1_0_0_1_n_n.lhsBatch by decide),
    dif_pos (show (0 : Fin S128x4096.rank) ∈ dot_S128x4096_S4096x4096_S128x4096_1_0_0_1_n_n.lhsNonContracting by decide)]
  rfl

/-- The weight's index there keeps the output's column. -/
theorem weight_col (j : S128x4096.Idx) (q : dot_S128x4096_S4096x4096_S128x4096_1_0_0_1_n_n.contr.Idx) :
    (dot_S128x4096_S4096x4096_S128x4096_1_0_0_1_n_n.rhsIdx j q 1).val = (j 1).val := by
  unfold DotDims.rhsIdx
  rw [dif_neg (show ¬(1 : Fin S4096x4096.rank) ∈ dot_S128x4096_S4096x4096_S128x4096_1_0_0_1_n_n.rhsBatch by decide),
    dif_pos (show (1 : Fin S4096x4096.rank) ∈ dot_S128x4096_S4096x4096_S128x4096_1_0_0_1_n_n.rhsNonContracting by decide)]
  rfl

/-- The tile times the weight into the zero accumulator, at entry (p, n): the sum over the 4096 features. -/
theorem product_apply (l : FVec Ideal S128x4096 .bf16) (w : FVec Ideal S4096x4096 .bf16) (p : Fin 128) (n : Fin 4096) :
    matmul dot_S128x4096_S4096x4096_S128x4096_1_0_0_1_n_n none l w (constant (F := Ideal) S128x4096 .f32 0x00000000#32) (ix2 p n)
      = ∑ k : Fin 4096, l (ix2 p k) * w (ix2 k n) :=
  Cert.LibPlainDot.matmul_zero_apply dot_S128x4096_S4096x4096_S128x4096_1_0_0_1_n_n rfl rfl rfl rfl tile_row weight_col
    none l w p n

/-- THE BODY'S STORE at entry (p, n) of the block. -/
theorem block_apply (x0 : Vec Ideal S128x4096 .f32) (x1 : Vec Ideal S4096x4096 .bf16) (x2 : Vec Ideal S1x4096 .f32)
    (p : Fin 128) (n : Fin 4096) :
    k0_pay1 (F := Ideal) x0 x1 x2 (ix2 p n) = (∑ k : Fin 4096, x0 (ix2 p k) * x1 (ix2 k n)) + x2 (ix2 (0 : Fin 1) n) := by
  unfold k0_pay1
  rw [shapeCast_self, shapeCast_self, shapeCast_self, addf_apply, product_apply,
    broadcastTo_1b_ab_apply x2 broadcasts_S1x4096_S128x4096 p n]
  rfl

end Cert.KernelIdeal.BlockValue

end
-- ==== Proof.RegionEntry.lean ====
/-
  What the region finds in the three arrays its input windows stage.  Before the region the program reads the
  [8, 2048, 4096] activation row-major as [16384, 4096] (the "gather" of the eight devices' rows), narrows the weight's
  float format (over the extended reals that changes nothing), and reads the [4096] bias as a [1, 4096] row.  So at
  region entry: the gathered activation at (r, k) is the argument at device r / 2048, local row r % 2048, feature k; the
  narrowed weight at (k, n) is the weight argument at (k, n); the bias row at (0, n) is the bias argument at n.
-/
import proofs.«172472_j18708877542041_2_alg».proof.Proof.Gen.KernelIdeal.Frame
import proofs.«172472_j18708877542041_2_alg».proof.Proof.Spec
import Idealize.ShloMosaic.Lib.StableHlo.Run
import Idealize.ShloMosaic.Lib.ValueLayout
import Idealize.ShloMosaic.Lib.ValueIdx
import Idealize.ShloMosaic.Lib.Pipeline.Value

noncomputable section

namespace Cert.KernelIdeal.RegionEntry

open Cert.KernelIdeal Cert.KernelIdeal.Gen Idealize.ShloMosaic Idealize.ShloMosaic.TcCoe Idealize.SL.Sem
open Idealize.ShloMosaic.StableHlo Idealize.ShloMosaic.ValueIdx Cert.GatheredLinear

variable (m : (ℓ : Loc nD τ sig) → Buf (Elt Ideal) ℓ)

/-- The gathered activation is the activation argument read row-major at the new shape. -/
theorem gathered_entry (c : Dev nD) :
    (V m c main_v0 : S16384x4096.Idx → EReal)
      = shapeCast S16384x4096 (m ((c : Thread nD τ).loc main_arg0)) shapeCasts_S8x2048x4096_S16384x4096 := by
  dsimp only [Gen.V, Gen.hostOps0]; after_results; rfl

/-- At (r, k) it is the argument at device r / 2048, local row r % 2048, feature k: the index with the same row-major
    position r * 4096 + k. -/
theorem gathered_entry_apply (c : Dev nD) (r : Fin 16384) (k : Fin 4096) :
    (V m c main_v0 : S16384x4096.Idx → EReal) (ix2 r k) = m ((c : Thread nD τ).loc main_arg0) (gatheredIdx r k) := by
  rw [gathered_entry]
  exact shapeCast_apply _ shapeCasts_S8x2048x4096_S16384x4096 (ix2 r k) (gatheredIdx r k) (by
    rewrite [Shape.rowMajor_val_three, Shape.rowMajor_val_two]
    show ((gatheredIdx r k 0).val * 2048 + (gatheredIdx r k 1).val) * 4096 + (gatheredIdx r k 2).val = r.val * 4096 + k.val
    exact gatheredIdx_pos r k)

/-- The narrowed weight is the weight argument, entry by entry. -/
theorem weight_entry_apply (c : Dev nD) (j : S4096x4096.Idx) :
    (V m c main_v1 : S4096x4096.Idx → EReal) j = (m ((c : Thread nD τ).loc main_arg1) : S4096x4096.Idx → EReal) j := by
  have e : (V m c main_v1 : S4096x4096.Idx → EReal)
      = (truncf .bf16 (m ((c : Thread nD τ).loc main_arg1)) bitsLt_bf16_f32 : FVec Ideal S4096x4096 .bf16) := by
    dsimp only [Gen.V, Gen.hostOps0]; after_results
  rw [e]
  rfl

/-- The bias row is the bias argument read at the shape [1, 4096]. -/
theorem bias_entry (c : Dev nD) :
    (V m c main_v2 : S1x4096.Idx → EReal)
      = shapeCast S1x4096 (m ((c : Thread nD τ).loc main_arg2)) shapeCasts_S4096_S1x4096 := by
  dsimp only [Gen.V, Gen.hostOps0]; after_results; rfl

/-- At (0, n) it is the bias argument at n. -/
theorem bias_entry_apply (c : Dev nD) (u : Fin 1) (n : Fin 4096) :
    (V m c main_v2 : S1x4096.Idx → EReal) (ix2 u n) = m ((c : Thread nD τ).loc main_arg2) (ix1 n) := by
  rw [bias_entry]
  exact shapeCast_a_1a_apply _ shapeCasts_S4096_S1x4096 u n

end Cert.KernelIdeal.RegionEntry

end
-- ==== Proof.KernelValue.lean ====
/-
  The kernel computes the layer.  The grid has 128 points; point t stages rows 128 t … 128 t + 127 of the gathered
  activation, the whole weight and the whole bias row, and writes back rows 128 t … 128 t + 127 of the result.  Entry
  (p, n) of what point t writes back is the body's store there: the sum over k of the staged tile at (p, k) — the
  gathered activation at row 128 t + p — times the weight at (k, n), plus the bias at n.  That is the layer at
  (128 t + p, n).  Row r of the result lies in the block of point r / 128, so the 128 blocks cover the result and the
  whole array ends holding the layer.
-/
import proofs.«172472_j18708877542041_2_alg».proof.Proof.Gen.KernelIdeal.Value
import proofs.«172472_j18708877542041_2_alg».proof.Proof.Spec
import proofs.«172472_j18708877542041_2_alg».proof.Proof.BlockValue
import proofs.«172472_j18708877542041_2_alg».proof.Proof.RegionEntry

noncomputable section

open scoped BigOperators

namespace Cert.KernelIdeal.KernelValue

open Cert.KernelIdeal Cert.KernelIdeal.Gen Idealize.ShloMosaic Idealize.ShloMosaic.TcCoe Idealize.SL.Sem
open Idealize.ShloMosaic.Pipeline (Dat)
open Idealize.ShloMosaic.ValueIdx Cert.GatheredLinear

variable (m : (ℓ : Loc nD τ sig) → Buf (Elt Ideal) ℓ) (ρ : Dev nD → PrngReg)

theorem zeros : (![0, 0] : Fin 2 → Nat) = fun _ => 0 := funext fun a => by fin_cases a <;> rfl

/-- A grid point is below 128. -/
theorem point_lt (t : Fin cfg0.N) : t.val < 128 := lt_of_lt_of_eq t.isLt N_0

/-- The printed index maps, decided over the 128 points: the activation's and the result's block index is (t, 0), the
    weight's and the bias row's is (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of point t's block is row 128 t + p of the array. -/
def rowAt (t : Fin cfg0.N) (p : Fin 128) : Fin 16384 :=
  ⟨t.val * 128 + p.val, by have := point_lt t; have := p.isLt; omega⟩

/-- The staged activation tile at (p, k) is the activation argument at gathered row 128 t + p, feature k. -/
theorem tile_read (c : Dev nD) (t : Fin cfg0.N) (p : Fin 128) (k : Fin 4096) :
    iblk m c 0 t (ix2 p k) = m ((c : Thread nD τ).loc main_arg0) (gatheredIdx (rowAt t p) k) := by
  obtain ⟨e0, e1, -⟩ := block_indices t
  have e : ((cfg0.win 0).blk t).view.emb (ix2 p k) = ix2 (rowAt t p) k := by
    funext a; apply Fin.ext
    match a with
    | ⟨0, _⟩ => show win0_0.index t (0 : Fin 2) * 128 + 1 * p.val = t.val * 128 + p.val; omega
    | ⟨1, _⟩ => show win0_0.index t (1 : Fin 2) * 4096 + 1 * k.val = k.val; omega
  show (V m c main_v0 : S16384x4096.Idx → EReal) (((cfg0.win 0).blk t).view.emb (ix2 p k)) = _
  rw [e]
  exact RegionEntry.gathered_entry_apply m c (rowAt t p) k

/-- The staged weight at (k, n) is the weight argument at (k, n). -/
theorem weight_read (c : Dev nD) (t : Fin cfg0.N) (k n : Fin 4096) :
    iblk m c 1 t (ix2 k n) = (m ((c : Thread nD τ).loc main_arg1) : S4096x4096.Idx → EReal) (ix2 k n) := by
  obtain ⟨-, -, e0, e1, -⟩ := block_indices t
  have e : ((cfg0.win 1).blk t).view.emb (ix2 k n) = ix2 k n := by
    funext a; apply Fin.ext
    match a with
    | ⟨0, _⟩ => show win0_1.index t (0 : Fin 2) * 4096 + 1 * k.val = k.val; omega
    | ⟨1, _⟩ => show win0_1.index t (1 : Fin 2) * 4096 + 1 * n.val = n.val; omega
  show (V m c main_v1 : S4096x4096.Idx → EReal) (((cfg0.win 1).blk t).view.emb (ix2 k n)) = _
  rw [e]
  exact RegionEntry.weight_entry_apply m c (ix2 k n)

/-- The staged bias row at (0, n) is the bias argument at n. -/
theorem bias_read (c : Dev nD) (t : Fin cfg0.N) (n : Fin 4096) :
    iblk m c 2 t (ix2 (0 : Fin 1) n) = m ((c : Thread nD τ).loc main_arg2) (ix1 n) := by
  obtain ⟨-, -, -, -, e0, e1, -⟩ := block_indices t
  have e : ((cfg0.win 2).blk t).view.emb (ix2 (0 : Fin 1) n) = ix2 (0 : Fin 1) n := by
    funext a; apply Fin.ext
    match a with
    | ⟨0, _⟩ => show win0_2.index t (0 : Fin 2) * 1 + 1 * 0 = 0; omega
    | ⟨1, _⟩ => show win0_2.index t (1 : Fin 2) * 4096 + 1 * n.val = n.val; omega
  show (V m c main_v2 : S1x4096.Idx → EReal) (((cfg0.win 2).blk t).view.emb (ix2 (0 : Fin 1) n)) = _
  rw [e]
  exact RegionEntry.bias_entry_apply m c 0 n

/-- Entry (p, n) of the result's block at point t is entry (128 t + p, n) of the array. -/
theorem out_emb (t : Fin cfg0.N) (p : Fin 128) (n : Fin 4096) :
    ((cfg0.win 3).blk t).view.emb (ix2 p n) = ix2 (rowAt t p) n := by
  obtain ⟨-, -, -, -, -, -, e0, e1⟩ := block_indices t
  funext a; apply Fin.ext
  match a with
  | ⟨0, _⟩ => show win0_3.index t (0 : Fin 2) * 128 + 1 * p.val = t.val * 128 + p.val; omega
  | ⟨1, _⟩ => show win0_3.index t (1 : Fin 2) * 4096 + 1 * n.val = n.val; omega

/-- WHAT POINT t WRITES BACK is block t of the layer of the argument arrays. -/
theorem flushed_is_linear (c : Dev nD) (t : Fin cfg0.N) :
    (dats m 0 c).flushed 3 t = ((cfg0.win 3).blk t).view.read (Elt Ideal)
      (linear (m ((c : Thread nD τ).loc main_arg0)) (m ((c : Thread nD τ).loc main_arg1)) (m ((c : Thread nD τ).loc main_arg2))) := by
  rw [Value.flushed3]
  unfold out0_3
  rw [View.canon_unit_zero zeros]
  simp only [View.ld_unit_zero (S := S128x4096) zeros, View.ld_unit_zero (S := S4096x4096) zeros, View.ld_unit_zero (S := S1x4096) zeros]
  refine funext fun (j : S128x4096.Idx) => ?_
  obtain ⟨p, n, rfl⟩ : ∃ (p : Fin 128) (n : Fin 4096), j = ix2 p n := ⟨j 0, j 1, eq_ix2 j⟩
  show k0_pay1 (iblk m c 0 t) (iblk m c 1 t) (iblk m c 2 t) (ix2 p n)
    = linear (m ((c : Thread nD τ).loc main_arg0)) (m ((c : Thread nD τ).loc main_arg1)) (m ((c : Thread nD τ).loc main_arg2))
        (((cfg0.win 3).blk t).view.emb (ix2 p n))
  rw [out_emb t p n, linear_apply]
  refine (BlockValue.block_apply (iblk m c 0 t) (iblk m c 1 t) (iblk m c 2 t) p n).trans ?_
  rw [bias_read m c t n]
  refine congrArg (· + m ((c : Thread nD τ).loc main_arg2) (ix1 n)) (Finset.sum_congr rfl fun k _ => ?_)
  rw [tile_read m c t p k, weight_read m c t k n]

/-- An index of the result is in point t's block iff each coordinate is in the block's range on its axis. -/
theorem mem_block (t : Fin cfg0.N) (i : S16384x4096.Idx) :
    i ∈ ((cfg0.win 3).blk t).view.set ↔ ∀ a : Fin 2, win0_3.index t a * S128x4096.size a ≤ (i a).val ∧ (i a).val < win0_3.index t a * S128x4096.size a + S128x4096.size a := by
  show i ∈ ((View.whole main_v3).slice (win0_3.rect t)).set ↔ _
  rw [View.set_slice_whole, Rect.mem_set_unit]
  exact Iff.rfl

/-- THE BLOCKS COVER THE RESULT: row r lies in the block of point r / 128. -/
theorem covered (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  obtain ⟨t, ht⟩ : ∃ t : Fin cfg0.N, t.val = (i 0).val / 128 :=
    ⟨⟨(i 0).val / 128, lt_of_lt_of_eq (by omega : (i 0).val / 128 < 128) N_0.symm⟩, rfl⟩
  obtain ⟨-, -, -, -, -, -, e0, e1⟩ := block_indices t
  refine ⟨t, flush0_3 t, ?_⟩
  rw [mem_block]
  intro a
  match a with
  | ⟨0, _⟩ => show win0_3.index t (0 : Fin 2) * 128 ≤ (i 0).val ∧ (i 0).val < win0_3.index t (0 : Fin 2) * 128 + 128; omega
  | ⟨1, _⟩ => show win0_3.index t (1 : Fin 2) * 4096 ≤ (i 1).val ∧ (i 1).val < win0_3.index t (1 : Fin 2) * 4096 + 4096; omega

/-- THE RESULT after the run is the layer of the argument arrays. -/
theorem final_is_linear (c : Dev nD) :
    (dats m 0 c).arrAt 3 cfg0.N
      = linear (m ((c : Thread nD τ).loc main_arg0)) (m ((c : Thread nD τ).loc main_arg1)) (m ((c : Thread nD τ).loc main_arg2)) :=
  (dats m 0 c).arrAt_eq_of_cover 3 _ (fun t _ => flushed_is_linear m c t) covered

/-- The kernel's run: every weakly fair execution ends with the result at the layer of the arguments, the arguments
    unchanged. -/
theorem run : θ_run defs (onTc (τ := τ) (main (F := Ideal))) ⟨m, fun _ => 0, ρ⟩ fun r => ∀ c : Dev nD,
      r.2.mem ((c : Thread nD τ).loc main_v3)
        = linear (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_is_linear m c), (h c).2⟩) (Value.run_blocks m ρ)

end Cert.KernelIdeal.KernelValue

end
-- ==== Proof.lean ====
/-
  A fused "gather the devices' rows, then apply a dense layer": the activation [8, 2048, 4096] is read row-major as
  [16384, 4096] (device r / 2048 holds gathered row r as its local row r % 2048), multiplied by a [4096, 4096] weight
  and a [4096] bias is added to every row.

  The kernel tiles the 16384 rows into 128 blocks of 128 rows, keeps the whole weight and bias resident, narrows tile
  and weight to a shorter float format on the way into the product and accumulates from zero; the reference is one
  contraction over the 4096 features followed by the bias spread over the rows.  Over the extended reals a change of
  float format is the identity, and a product into a zero accumulator is the plain sum, so both programs compute, at
  output (r, n), the sum over k of activation (r, k) times weight (k, n), plus bias n (Proof/Spec.lean).  The two sums
  run over the same index in the same order of terms, so no law of the extended reals beyond 0 + x = x is used and the
  finiteness of the inputs is never opened.

  The reference side reads its run one operation at a time (Proof/RefIsLinear.lean).  The kernel side reads the body's
  store at an entry of a block (Proof/BlockValue.lean), what the host operations before the region left in the staged
  arrays (Proof/RegionEntry.lean), and then the 128 written-back blocks as one whole array (Proof/KernelValue.lean).
  The idealization rewrote nothing in the kernel, so that claim has no conjunct.
-/
import proofs.«172472_j18708877542041_2_alg».proof.Defs
import proofs.«172472_j18708877542041_2_alg».proof.Proof.Gen.Kernel
import proofs.«172472_j18708877542041_2_alg».proof.Proof.Gen.Kernel.Frame
import proofs.«172472_j18708877542041_2_alg».proof.Proof.Gen.KernelIdeal
import proofs.«172472_j18708877542041_2_alg».proof.Proof.Gen.KernelIdeal.Frame
import proofs.«172472_j18708877542041_2_alg».proof.Proof.Gen.KernelIdeal.Value
import proofs.«172472_j18708877542041_2_alg».proof.Proof.Gen.ReferenceIdeal
import proofs.«172472_j18708877542041_2_alg».proof.Proof.Gen.ReferenceIdeal.Run
import proofs.«172472_j18708877542041_2_alg».proof.Proof.Gen.ReferenceIdeal.Read
import proofs.«172472_j18708877542041_2_alg».proof.Proof.Gen.Pre_finite_inputs
import proofs.«172472_j18708877542041_2_alg».proof.Proof.RefIsLinear
import proofs.«172472_j18708877542041_2_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's run, with its result dropped, is its frame. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel: nothing to restate. -/
theorem preserves : Cert.preserves_Kernel_KernelIdeal := trivial

/-- Over the extended reals, from memories that agree on the three arguments, the kernel's result array and the
    reference's both end at the layer of the arguments: the sum over the features of activation times weight, plus
    the bias. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.reference_is_linear,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
